-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S1024x2048 : Shape := ⟨2, ![1024, 2048]⟩
abbrev S8192x2048 : Shape := ⟨2, ![8192, 2048]⟩
abbrev S512x2048 : Shape := ⟨2, ![512, 2048]⟩
abbrev S3072x2048 : Shape := ⟨2, ![3072, 2048]⟩
abbrev S6144x2048 : Shape := ⟨2, ![6144, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S3072x2048 : S_.BroadcastsInDim S3072x2048 (![] : Fin 0 → Fin S3072x2048.rank)
  reducesTo_S3072x2048_S_d0_1 : S3072x2048.ReducesTo [0, 1] S_
  bcast_S_S6144x2048 : S_.BroadcastsInDim S6144x2048 (![] : Fin 0 → Fin S6144x2048.rank)
  reducesTo_S6144x2048_S_d0_1 : S6144x2048.ReducesTo [0, 1] S_

variable [Facts]

def fn_part2 {F : FTy → Type} [FloatOps F] (main_arg7 : FVec F S1024x2048 .f32) (main_arg8 : FVec F S2048x2048 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  main_v43

def fn_part1 {F : FTy → Type} [FloatOps F] (main_arg4 : FVec F S512x2048 .f32) (main_arg5 : FVec F S3072x2048 .f32) (main_arg6 : FVec F S6144x2048 .f32) (main_arg7 : FVec F S1024x2048 .f32) (main_arg8 : FVec F S2048x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S3072x2048 .f32 := Host.absf main_arg5
  let main_cst_8 : FVec F S_ .f32 := constant S_ .f32 0x7F800000#32
  let main_v25 : FVec F S3072x2048 .f32 := broadcastInDim S3072x2048 ![] bcast_S_S3072x2048 main_cst_8
  let main_v26 : IVec S3072x2048 1 := cmpf .olt main_v24 main_v25
  let main_c_9 : IVec S_ 1 := constantI S_ 1 1#1
  let main_v27 : IVec S_ 1 := (fun x v => Host.reduce IntOp.andi x v reducesTo_S3072x2048_S_d0_1 h_S_) main_v26 main_c_9
  let main_v28 : IVec S_ 1 := andi main_v23 main_v27
  let main_v29 : FVec F S6144x2048 .f32 := Host.absf main_arg6
  let main_cst_10 : FVec F S_ .f32 := constant S_ .f32 0x7F800000#32
  let main_v30 : FVec F S6144x2048 .f32 := broadcastInDim S6144x2048 ![] bcast_S_S6144x2048 main_cst_10
  let main_v31 : IVec S6144x2048 1 := cmpf .olt main_v29 main_v30
  let main_c_11 : IVec S_ 1 := constantI S_ 1 1#1
  let main_v32 : IVec S_ 1 := (fun x v => Host.reduce IntOp.andi x v reducesTo_S6144x2048_S_d0_1 h_S_) main_v31 main_c_11
  let main_v33 : IVec S_ 1 := andi main_v28 main_v32
  fn_part2 (F := F) main_arg7 main_arg8 main_v33

def fn {F : FTy → Type} [FloatOps F] (main_arg0 : FVec F S4096x2048 .f32) (main_arg1 : FVec F S2048x2048 .f32) (main_arg2 : FVec F S1024x2048 .f32) (main_arg3 : FVec F S8192x2048 .f32) (main_arg4 : FVec F S512x2048 .f32) (main_arg5 : FVec F S3072x2048 .f32) (main_arg6 : FVec F S6144x2048 .f32) (main_arg7 : FVec F S1024x2048 .f32) (main_arg8 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_v13 main_v16
-- ==== Kernel.lean ====
abbrev S4096x2048 : Shape := ⟨2, ![4096, 2048]⟩
abbrev S2048x2048 : Shape := ⟨2, ![2048, 2048]⟩
abbrev S1024x2048 : Shape := ⟨2, ![1024, 2048]⟩
abbrev S8192x2048 : Shape := ⟨2, ![8192, 2048]⟩
abbrev S512x2048 : Shape := ⟨2, ![512, 2048]⟩
abbrev S3072x2048 : Shape := ⟨2, ![3072, 2048]⟩
abbrev S6144x2048 : Shape := ⟨2, ![6144, 2048]⟩
abbrev S26112x2048 : Shape := ⟨2, ![26112, 2048]⟩
abbrev S768x2048 : Shape := ⟨2, ![768, 2048]⟩

abbrev nBuf : Space → Nat
  | .hbm => 13
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1024x2048, .f32⟩
  | .hbm, ⟨3, _⟩ => ⟨S8192x2048, .f32⟩
  | .hbm, ⟨4, _⟩ => ⟨S512x2048, .f32⟩
  | .hbm, ⟨5, _⟩ => ⟨S3072x2048, .f32⟩
  | .hbm, ⟨6, _⟩ => ⟨S6144x2048, .f32⟩
  | .hbm, ⟨7, _⟩ => ⟨S1024x2048, .f32⟩
  | .hbm, ⟨8, _⟩ => ⟨S2048x2048, .f32⟩
  | .hbm, ⟨9, _⟩ => ⟨S26112x2048, .f32⟩
  | .hbm, ⟨10, _⟩ => ⟨S26112x2048, .bf16⟩
  | .hbm, ⟨11, _⟩ => ⟨S2048x2048, .bf16⟩
  | .hbm, ⟨12, _⟩ => ⟨S26112x2048, .f32⟩
  | .local _ .vmem, ⟨0, _⟩ => ⟨S768x2048, .bf16⟩
  | .local _ .vmem, ⟨1, _⟩ => ⟨S768x2048, .bf16⟩
  | .local _ .vmem, ⟨2, _⟩ => ⟨S2048x2048, .bf16⟩
  | .local _ .vmem, ⟨3, _⟩ => ⟨S768x2048, .f32⟩
  | .local _ .vmem, ⟨4, _⟩ => ⟨S768x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S4096x2048_S2048x2048_S1024x2048_S8192x2048_S512x2048_S3072x2048_S6144x2048_S1024x2048_S26112x2048_d0 : Shape.Concatenates [S4096x2048, S2048x2048, S1024x2048, S8192x2048, S512x2048, S3072x2048, S6144x2048, S1024x2048] S26112x2048 0
  bitsLt_bf16_f32 : FTy.bits .bf16 < FTy.bits .f32
  inb_S768x2048_S768x2048_0_0 : ∀ a, (![0, 0] : Fin 2 → Nat) a + S768x2048.size a ≤ S768x2048.size a
  h_S768x2048 : 0 < S768x2048.numel
  shapeCasts_S768x2048_S768x2048 : S768x2048.ShapeCasts S768x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S768x2048_S2048x2048_S768x2048_1_0_0_1_n_n_wf : DotDims.WF S768x2048 S2048x2048 S768x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S768x2048.size a ≤ S26112x2048.size a
  hwx0_0 : ∀ i : grid0.Coords, EltTy.bits .bf16 = 32 ∨ (Rect.block (s := S26112x2048) S768x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S768x2048.size a ≤ S26112x2048.size a
  hwx0_2 : ∀ i : grid0.Coords, EltTy.bits .f32 = 32 ∨ (Rect.block (s := S26112x2048) S768x2048.size (cc0_transform_2 i) (hinb0_2 i)).WholeWords (EltTy.packing .f32)

variable [Facts₀]

def dot_S768x2048_S2048x2048_S768x2048_1_0_0_1_n_n : DotDims S768x2048 S2048x2048 S768x2048 where
  lhsContracting := [1]
  rhsContracting := [0]
  lhsNonContracting := [0]
  rhsNonContracting := [1]
  lhsBatch := []
  rhsBatch := []
  wf := dot_S768x2048_S2048x2048_S768x2048_1_0_0_1_n_n_wf

abbrev win0_0 : Pipeline.Window sig grid0 :=
  Pipeline.Window.ofSpec (Memref.whole main_v1) S768x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S1024x2048 : Shape := ⟨2, ![1024, 2048]⟩
abbrev S8192x2048 : Shape := ⟨2, ![8192, 2048]⟩
abbrev S512x2048 : Shape := ⟨2, ![512, 2048]⟩
abbrev S3072x2048 : Shape := ⟨2, ![3072, 2048]⟩
abbrev S6144x2048 : Shape := ⟨2, ![6144, 2048]⟩
abbrev S26112x2048 : Shape := ⟨2, ![26112, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1024x2048, .f32⟩
  | .hbm, ⟨3, _⟩ => ⟨S8192x2048, .f32⟩
  | .hbm, ⟨4, _⟩ => ⟨S512x2048, .f32⟩
  | .hbm, ⟨5, _⟩ => ⟨S3072x2048, .f32⟩
  | .hbm, ⟨6, _⟩ => ⟨S6144x2048, .f32⟩
  | .hbm, ⟨7, _⟩ => ⟨S1024x2048, .f32⟩
  | .hbm, ⟨8, _⟩ => ⟨S2048x2048, .f32⟩
  | .hbm, ⟨9, _⟩ => ⟨S26112x2048, .f32⟩
  | .hbm, ⟨10, _⟩ => ⟨S26112x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩

abbrev nD : Nat := 1
abbrev τ : Topo := Topo.v7x

variable {F : FTy → Type} [FloatOps F]

class Facts₀ : Prop where
  concatenates_S4096x2048_S2048x2048_S1024x2048_S8192x2048_S512x2048_S3072x2048_S6144x2048_S1024x2048_S26112x2048_d0 : Shape.Concatenates [S4096x2048, S2048x2048, S1024x2048, S8192x2048, S512x2048, S3072x2048, S6144x2048, S1024x2048] S26112x2048 0
  dot_S26112x2048_S2048x2048_S26112x2048_1_0_0_1_n_n_wf : DotDims.WF S26112x2048 S2048x2048 S26112x2048 [1] [0] [0] [1] [] []

variable [Facts₀]

def dot_S26112x2048_S2048x2048_S26112x2048_1_0_0_1_n_n : DotDims S26112x2048 S2048x2048 S26112x2048 where
  lhsContracting := [1]
  rhsContracting := [0]
  lhsNonContracting := [0]
  rhsNonContracting := [1]
  lhsBatch := []
  rhsBatch := []
  wf := dot_S26112x2048_S2048x2048_S26112x2048_1_0_0_1_n_n_wf

class Facts : Prop extends Facts₀ where

variable [Facts]
-- ==== Proof.BitsRowBlocks.lean ====
/-
  The run of the concatenated grouped product, and why it leaves its arguments alone.

  The program first joins the eight row groups into one 26112 × 2048 array, narrows that array and the shared
  2048 × 2048 factor to bf16, and then launches one region over 34 grid points. Grid point t stages rows
  768·t … 768·t + 767 of the narrowed join together with the whole narrowed factor, multiplies the two into a zero
  accumulator, and writes the 768 × 2048 product back as the same rows of the result. The three host operations write
  only their own results and the region writes only its result array, so each of the nine argument arrays ends
  holding what it held at the start; the result array ends holding, block of rows by block of rows, the product of
  that block of the narrowed join with the narrowed factor.

  Stated for every float instance: the argument is about which cells are read and written, never about the numbers.
-/
import proofs.«159174_j91036126806575_2_alg».proof.Proof.Gen.Kernel.Launch
import proofs.«159174_j91036126806575_2_alg».proof.Proof.Gen.Kernel.Skeleton
import proofs.«159174_j91036126806575_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.RowBlocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- What each buffer of core `c` holds once the join and the two narrowings have run. -/
abbrev V (c : Dev nD) (b : Ref sig .tc) : Buf (Elt F) ((c : Thread nD τ).loc b) :=
  StableHlo.after hostOps0 (fun b => m (c, b)) b

/-- None of the three host operations allocates a buffer. -/
theorem hostOps0_fresh : (hostOps0 : List (HloOp τ sig (Elt F))).Forall fun op => op.fresh = ∅ := by
  simp only [List.Forall]; repeat' constructor

/-- The program is those three operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The join writes only the joined array and the narrowings only their narrowed copies: argument 0 is untouched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 1 is untouched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 2 is untouched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 3 is untouched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 4 is untouched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 5 is untouched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 6 is untouched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 7 is untouched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 8 is untouched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, Finset.mem_singleton]
    repeat' apply And.intro
    all_goals exact StableHlo.devRef_ne_of_ne (by decide)))

/-! ## The blocks the region stages -/

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the row window holds rows 768·t … of the narrowed join at every point. -/
theorem rows_before_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the factor window holds the whole narrowed factor at every point: it is fetched once, at the
    first point, and its block index never moves. -/
theorem factor_before_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- No window of the region stages an argument array (the windows are the two narrowed copies and the result), so a
    final state that has every unstaged buffer as the region found it has every argument as launched. -/
theorem kept (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩

/-- So a run to such a state is a run that leaves the arguments unchanged. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => kept m dats r h c) h

/-! ## One grid point -/

/-- The whole 768 × 2048 staging block, and the whole 2048 × 2048 one: the rectangles the body loads and stores through. -/
abbrev rowsRect : Rect S768x2048 := Rect.unit (s := S768x2048) ![0, 0] S768x2048.size inb_S768x2048_S768x2048_0_0
abbrev factorRect : Rect S2048x2048 := Rect.unit (s := S2048x2048) ![0, 0] S2048x2048.size inb_S2048x2048_S2048x2048_0_0

/-- What the result's staging buffer holds after the body: its one store, the product of the staged rows with the
    staged factor, laid over the whole block. -/
def productBlock (x0 : Vec F S768x2048 .bf16) (x1 : Vec F S2048x2048 .bf16) : Vec F S768x2048 .f32 :=
  View.canon [⟨rowsRect, k0_pay1 (View.ld x0 rowsRect) (View.ld x1 factorRect)⟩]

/-- That one store covers the block. -/
theorem productBlock_cover (p0 : Vec F S768x2048 .f32) (y : S768x2048.Idx) :
    ∃ pc ∈ ([⟨rowsRect, p0⟩] : List (View.Piece (Elt F) S768x2048 .f32)), y ∈ pc.1.set :=
  View.cover_of_tiled [⟨rowsRect, p0⟩] S768x2048.size (by rfl) y

set_option maxHeartbeats 1000000 in
/-- The body, given the two input staging buffers at `x0`, `x1` and the result's at anything, returns the inputs as
    they were and the result's buffer at `productBlock x0 x1`: it loads the three buffers whole, and its only store
    overwrites the whole result block with the product. -/
theorem sound_kernel (c : Dev nD) (E : Set ℕ) (i : grid0.Coords) (arg1 : Memref sig .tc .vmem S768x2048 .bf16) (harg1 : arg1.IsWhole) (arg2 : Memref sig .tc .vmem S2048x2048 .bf16) (harg2 : arg2.IsWhole) (arg3 : Memref sig .tc .vmem S768x2048 .f32) (harg3 : arg3.IsWhole)
    (x0 : Vec F S768x2048 .bf16) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (productBlock x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (productBlock_cover _)

/-! ## The region's proof data -/

/-- On core `c`: the arrays as the region finds them; after the body at point `t` the two inputs' buffers at their
    blocks and the result's at the product of those blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => productBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_factor (c : Dev nD) (t : Fin cfg0.N) : (dats m 0 c).after 1 t = iblk m c 1 t := by dsimp only [dats]
theorem after_product (c : Dev nD) (t : Fin cfg0.N) : (dats m 0 c).after 2 t = productBlock (iblk m c 0 t) (iblk m c 1 t) := by dsimp only [dats]

theorem before_rows (c : Dev nD) (t : Fin cfg0.N) (d) : (dats m 0 c).before 0 t d = iblk m c 0 t :=
  rows_before_of m (dats m 0 c) (A_eq m c 0) (after_rows m c) t d
theorem before_factor (c : Dev nD) (t : Fin cfg0.N) (d) : (dats m 0 c).before 1 t d = iblk m c 1 t :=
  factor_before_of m (dats m 0 c) (A_eq m c 1) (after_factor m c) t d

/-! ## The body at every grid point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The input buffers hold their blocks, so the body's triple applies; everything else passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_factor]
  rw [show (dats m 0 c).Φ t.succ = (dats m 0 c).Φ t.castSucc from rfl,
    show (dats m 0 c).owesAt () t.succ = (dats m 0 c).owesAt () t.castSucc from rfl,
    after_rows, after_factor, after_product]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; the two narrowed copies end as the region
    found them, the result array at what the 34 write-backs leave, and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program terminates, faults nowhere, and leaves its nine arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.Kernel.RowBlocks

end
-- ==== Proof.IdealRowBlocks.lean ====
/-
  The run of the concatenated grouped product, and why it leaves its arguments alone.

  The program first joins the eight row groups into one 26112 × 2048 array, narrows that array and the shared
  2048 × 2048 factor to bf16, and then launches one region over 34 grid points. Grid point t stages rows
  768·t … 768·t + 767 of the narrowed join together with the whole narrowed factor, multiplies the two into a zero
  accumulator, and writes the 768 × 2048 product back as the same rows of the result. The three host operations write
  only their own results and the region writes only its result array, so each of the nine argument arrays ends
  holding what it held at the start; the result array ends holding, block of rows by block of rows, the product of
  that block of the narrowed join with the narrowed factor.

  Stated for every float instance: the argument is about which cells are read and written, never about the numbers.
-/
import proofs.«159174_j91036126806575_2_alg».proof.Proof.Gen.KernelIdeal.Launch
import proofs.«159174_j91036126806575_2_alg».proof.Proof.Gen.KernelIdeal.Skeleton
import proofs.«159174_j91036126806575_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.RowBlocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- What each buffer of core `c` holds once the join and the two narrowings have run. -/
abbrev V (c : Dev nD) (b : Ref sig .tc) : Buf (Elt F) ((c : Thread nD τ).loc b) :=
  StableHlo.after hostOps0 (fun b => m (c, b)) b

/-- None of the three host operations allocates a buffer. -/
theorem hostOps0_fresh : (hostOps0 : List (HloOp τ sig (Elt F))).Forall fun op => op.fresh = ∅ := by
  simp only [List.Forall]; repeat' constructor

/-- The program is those three operations followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The join writes only the joined array and the narrowings only their narrowed copies: argument 0 is untouched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 1 is untouched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 2 is untouched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 3 is untouched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 4 is untouched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 5 is untouched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 6 is untouched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 7 is untouched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, Finset.mem_singleton]
    repeat' apply And.intro
    all_goals exact StableHlo.devRef_ne_of_ne (by decide)))
/-- The join writes only the joined array and the narrowings only their narrowed copies: argument 8 is untouched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, Finset.mem_singleton]
    repeat' apply And.intro
    all_goals exact StableHlo.devRef_ne_of_ne (by decide)))

/-! ## The blocks the region stages -/

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the row window holds rows 768·t … of the narrowed join at every point. -/
theorem rows_before_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the factor window holds the whole narrowed factor at every point: it is fetched once, at the
    first point, and its block index never moves. -/
theorem factor_before_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- No window of the region stages an argument array (the windows are the two narrowed copies and the result), so a
    final state that has every unstaged buffer as the region found it has every argument as launched. -/
theorem kept (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩

/-- So a run to such a state is a run that leaves the arguments unchanged. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => kept m dats r h c) h

/-! ## One grid point -/

/-- The whole 768 × 2048 staging block, and the whole 2048 × 2048 one: the rectangles the body loads and stores through. -/
abbrev rowsRect : Rect S768x2048 := Rect.unit (s := S768x2048) ![0, 0] S768x2048.size inb_S768x2048_S768x2048_0_0
abbrev factorRect : Rect S2048x2048 := Rect.unit (s := S2048x2048) ![0, 0] S2048x2048.size inb_S2048x2048_S2048x2048_0_0

/-- What the result's staging buffer holds after the body: its one store, the product of the staged rows with the
    staged factor, laid over the whole block. -/
def productBlock (x0 : Vec F S768x2048 .bf16) (x1 : Vec F S2048x2048 .bf16) : Vec F S768x2048 .f32 :=
  View.canon [⟨rowsRect, k0_pay1 (View.ld x0 rowsRect) (View.ld x1 factorRect)⟩]

/-- That one store covers the block. -/
theorem productBlock_cover (p0 : Vec F S768x2048 .f32) (y : S768x2048.Idx) :
    ∃ pc ∈ ([⟨rowsRect, p0⟩] : List (View.Piece (Elt F) S768x2048 .f32)), y ∈ pc.1.set :=
  View.cover_of_tiled [⟨rowsRect, p0⟩] S768x2048.size (by rfl) y

set_option maxHeartbeats 1000000 in
/-- The body, given the two input staging buffers at `x0`, `x1` and the result's at anything, returns the inputs as
    they were and the result's buffer at `productBlock x0 x1`: it loads the three buffers whole, and its only store
    overwrites the whole result block with the product. -/
theorem sound_kernel (c : Dev nD) (E : Set ℕ) (i : grid0.Coords) (arg1 : Memref sig .tc .vmem S768x2048 .bf16) (harg1 : arg1.IsWhole) (arg2 : Memref sig .tc .vmem S2048x2048 .bf16) (harg2 : arg2.IsWhole) (arg3 : Memref sig .tc .vmem S768x2048 .f32) (harg3 : arg3.IsWhole)
    (x0 : Vec F S768x2048 .bf16) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (productBlock x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (productBlock_cover _)

/-! ## The region's proof data -/

/-- On core `c`: the arrays as the region finds them; after the body at point `t` the two inputs' buffers at their
    blocks and the result's at the product of those blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => productBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_factor (c : Dev nD) (t : Fin cfg0.N) : (dats m 0 c).after 1 t = iblk m c 1 t := by dsimp only [dats]
theorem after_product (c : Dev nD) (t : Fin cfg0.N) : (dats m 0 c).after 2 t = productBlock (iblk m c 0 t) (iblk m c 1 t) := by dsimp only [dats]

theorem before_rows (c : Dev nD) (t : Fin cfg0.N) (d) : (dats m 0 c).before 0 t d = iblk m c 0 t :=
  rows_before_of m (dats m 0 c) (A_eq m c 0) (after_rows m c) t d
theorem before_factor (c : Dev nD) (t : Fin cfg0.N) (d) : (dats m 0 c).before 1 t d = iblk m c 1 t :=
  factor_before_of m (dats m 0 c) (A_eq m c 1) (after_factor m c) t d

/-! ## The body at every grid point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The input buffers hold their blocks, so the body's triple applies; everything else passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_factor]
  rw [show (dats m 0 c).Φ t.succ = (dats m 0 c).Φ t.castSucc from rfl,
    show (dats m 0 c).owesAt () t.succ = (dats m 0 c).owesAt () t.castSucc from rfl,
    after_rows, after_factor, after_product]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; the two narrowed copies end as the region
    found them, the result array at what the 34 write-backs leave, and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program terminates, faults nowhere, and leaves its nine arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.KernelIdeal.RowBlocks

end
-- ==== Proof.RowByColumn.lean ====
/-
  The row-by-column product, stated once over plain index functions.

  Entry (r, j) of the product of a 26112 × 2048 array `a` with a 2048 × 2048 array `b` is the sum over the 2048
  shared positions k of a[r, k] · b[k, j], on the extended reals. Both programs compute exactly this sum of exactly
  these products (the kernel 768 rows at a time, the reference all rows at once), so no law of the extended reals
  beyond the equality of the summands is ever needed, and finiteness of the inputs plays no part.
-/
import Idealize.ShloMosaic.PureOps.Ideal
import Idealize.ShloMosaic.Lib.ValueIdx

noncomputable section

namespace Cert.RowByColumn

open Idealize.ShloMosaic

/-- The tall operand's and the result's shape, and the square factor's. -/
abbrev Tall : Shape := ⟨2, ![26112, 2048]⟩
abbrev Square : Shape := ⟨2, ![2048, 2048]⟩

/-- Position `k` of the row through `i`: the entry (i₀, k) of the tall operand. -/
abbrev inRow (i : Tall.Idx) (k : Fin 2048) : Tall.Idx := fun a => match a with
  | ⟨0, _⟩ => ⟨(i 0).val, (i 0).isLt⟩
  | ⟨1, _⟩ => ⟨k.val, k.isLt⟩

/-- Position `k` of the column through `i`: the entry (k, i₁) of the square factor. -/
abbrev inColumn (i : Tall.Idx) (k : Fin 2048) : Square.Idx := fun a => match a with
  | ⟨0, _⟩ => ⟨k.val, k.isLt⟩
  | ⟨1, _⟩ => ⟨(i 1).val, (i 1).isLt⟩

/-- The product: entry `i` is the sum over `k` of the row's entry at `k` times the column's entry at `k`. -/
def product (a : Tall.Idx → EReal) (b : Square.Idx → EReal) : Tall.Idx → EReal :=
  fun i => ∑ k : Fin 2048, a (inRow i k) * b (inColumn i k)

theorem product_apply (a : Tall.Idx → EReal) (b : Square.Idx → EReal) (i : Tall.Idx) :
    product a b i = ∑ k : Fin 2048, a (inRow i k) * b (inColumn i k) := rfl

end Cert.RowByColumn

end
-- ==== Proof.IdealProduct.lean ====
/-
  What the idealized kernel's result array holds after the run: the row-by-column product of the joined row groups
  with the shared factor.

  On the extended reals a change of float format is the identity, so the two narrowed arrays the region stages are the
  join of the eight groups and the shared factor themselves. Grid point t multiplies rows 768·t … 768·t + 767 of the
  join by the whole factor; entry (p, q) of that 768 × 2048 block is the sum over k of join[768·t + p, k] · factor[k, q],
  which is entry (768·t + p, q) of the whole product. The 34 blocks of 768 rows tile the 26112 rows, row r lying in
  block r / 768, so the array ends holding the whole product.
-/
import proofs.«159174_j91036126806575_2_alg».proof.Proof.IdealRowBlocks
import proofs.«159174_j91036126806575_2_alg».proof.Proof.RowByColumn
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.Product

open Cert.KernelIdeal Cert.KernelIdeal.Gen Cert.KernelIdeal.RowBlocks Cert.RowByColumn
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The two staged arrays -/

/-- The eight row groups joined along the rows, as launched. -/
def joined (c : Dev nD) : (⟨S26112x2048, .f32⟩ : BufTy).Contents (Elt Ideal) :=
  concatenate S26112x2048 0 [⟨S4096x2048, (m ((c : Thread nD τ).loc main_arg0))⟩, ⟨S2048x2048, (m ((c : Thread nD τ).loc main_arg1))⟩, ⟨S1024x2048, (m ((c : Thread nD τ).loc main_arg2))⟩, ⟨S8192x2048, (m ((c : Thread nD τ).loc main_arg3))⟩, ⟨S512x2048, (m ((c : Thread nD τ).loc main_arg4))⟩, ⟨S3072x2048, (m ((c : Thread nD τ).loc main_arg5))⟩, ⟨S6144x2048, (m ((c : Thread nD τ).loc main_arg6))⟩, ⟨S1024x2048, (m ((c : Thread nD τ).loc main_arg7))⟩] concatenates_S4096x2048_S2048x2048_S1024x2048_S8192x2048_S512x2048_S3072x2048_S6144x2048_S1024x2048_S26112x2048_d0

/-- The narrowed join the region stages is the join: narrowing is the identity on the extended reals. -/
theorem narrowedJoin_eq (c : Dev nD) : (V m c main_v1 : S26112x2048.Idx → EReal) = joined m c := by
  dsimp only [V, hostOps0]; after_results; rfl

/-- The narrowed factor the region stages is the shared factor. -/
theorem narrowedFactor_eq (c : Dev nD) : (V m c main_v2 : S2048x2048.Idx → EReal) = m ((c : Thread nD τ).loc main_arg8) := by
  dsimp only [V, hostOps0]; after_results; rfl

/-! ## One block of the product -/

theorem hz : (![0, 0] : Fin 2 → Nat) = fun _ => 0 := funext fun a => by fin_cases a <;> rfl

/-- Position `k` of row `j₀` of the staged rows, and position `k` of column `j₁` of the staged factor. -/
abbrev blockRow (j : S768x2048.Idx) (k : Fin 2048) : S768x2048.Idx := fun a => match a with
  | ⟨0, _⟩ => ⟨(j 0).val, (j 0).isLt⟩
  | ⟨1, _⟩ => ⟨k.val, k.isLt⟩
abbrev blockColumn (j : S768x2048.Idx) (k : Fin 2048) : S2048x2048.Idx := fun a => match a with
  | ⟨0, _⟩ => ⟨k.val, k.isLt⟩
  | ⟨1, _⟩ => ⟨(j 1).val, (j 1).isLt⟩

theorem lhs_row (j : S768x2048.Idx) (q : dot_S768x2048_S2048x2048_S768x2048_1_0_0_1_n_n.contr.Idx) : (dot_S768x2048_S2048x2048_S768x2048_1_0_0_1_n_n.lhsIdx j q 0).val = (j 0).val := by
  unfold DotDims.lhsIdx
  rw [dif_neg (show ¬(0 : Fin S768x2048.rank) ∈ dot_S768x2048_S2048x2048_S768x2048_1_0_0_1_n_n.lhsBatch by decide), dif_pos (show (0 : Fin S768x2048.rank) ∈ dot_S768x2048_S2048x2048_S768x2048_1_0_0_1_n_n.lhsNonContracting by decide)]
  rfl
theorem lhs_shared (j : S768x2048.Idx) (q : dot_S768x2048_S2048x2048_S768x2048_1_0_0_1_n_n.contr.Idx) : (dot_S768x2048_S2048x2048_S768x2048_1_0_0_1_n_n.lhsIdx j q 1).val = (q ⟨0, by decide⟩).val :=
  dot_S768x2048_S2048x2048_S768x2048_1_0_0_1_n_n.lhsIdx_val_of_single rfl j q
theorem rhs_shared (j : S768x2048.Idx) (q : dot_S768x2048_S2048x2048_S768x2048_1_0_0_1_n_n.contr.Idx) : (dot_S768x2048_S2048x2048_S768x2048_1_0_0_1_n_n.rhsIdx j q 0).val = (q ⟨0, by decide⟩).val :=
  dot_S768x2048_S2048x2048_S768x2048_1_0_0_1_n_n.rhsIdx_val_of_single rfl j q
theorem rhs_column (j : S768x2048.Idx) (q : dot_S768x2048_S2048x2048_S768x2048_1_0_0_1_n_n.contr.Idx) : (dot_S768x2048_S2048x2048_S768x2048_1_0_0_1_n_n.rhsIdx j q 1).val = (j 1).val := by
  unfold DotDims.rhsIdx
  rw [dif_neg (show ¬(1 : Fin S2048x2048.rank) ∈ dot_S768x2048_S2048x2048_S768x2048_1_0_0_1_n_n.rhsBatch by decide), dif_pos (show (1 : Fin S2048x2048.rank) ∈ dot_S768x2048_S2048x2048_S768x2048_1_0_0_1_n_n.rhsNonContracting by decide)]
  rfl

/-- Entry `j` of what the body stores: the staged rows' row `j₀` against the staged factor's column `j₁`, summed over
    the 2048 shared positions (the accumulator the product is added to is zero). -/
theorem payload_apply (x0 : Vec Ideal S768x2048 .bf16) (x1 : Vec Ideal S2048x2048 .bf16) (j : S768x2048.Idx) :
    k0_pay1 (F := Ideal) x0 x1 j = ∑ k : Fin 2048, (x0 (blockRow j k) : EReal) * (x1 (blockColumn j k) : EReal) := by
  unfold k0_pay1
  simp only [shapeCast_self, matmul]
  rw [Ideal.matmul_constant_zero_apply, ← Equiv.sum_comp (ValueIdx.contrEquiv1 dot_S768x2048_S2048x2048_S768x2048_1_0_0_1_n_n 2048 rfl rfl).symm]
  refine Finset.sum_congr rfl fun k _ => ?_
  have hk := ValueIdx.contrEquiv1_symm_val dot_S768x2048_S2048x2048_S768x2048_1_0_0_1_n_n 2048 rfl rfl k
  have el : dot_S768x2048_S2048x2048_S768x2048_1_0_0_1_n_n.lhsIdx j ((ValueIdx.contrEquiv1 dot_S768x2048_S2048x2048_S768x2048_1_0_0_1_n_n 2048 rfl rfl).symm k) = blockRow j k := funext fun a => Fin.ext (by
    match a with
    | ⟨0, _⟩ => exact lhs_row _ _
    | ⟨1, _⟩ => exact (lhs_shared _ _).trans hk)
  have er : dot_S768x2048_S2048x2048_S768x2048_1_0_0_1_n_n.rhsIdx j ((ValueIdx.contrEquiv1 dot_S768x2048_S2048x2048_S768x2048_1_0_0_1_n_n 2048 rfl rfl).symm k) = blockColumn j k := funext fun a => Fin.ext (by
    match a with
    | ⟨0, _⟩ => exact (rhs_shared _ _).trans hk
    | ⟨1, _⟩ => exact rhs_column _ _)
  rw [el, er]

/-! ## From the blocks to the array -/

/-- Where the three windows sit at grid point `t`: the staged rows and the written rows are both block `t` of their
    arrays, all columns; the factor is always its one whole block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- Entry `y` of the rows staged at grid point `t` is entry (768·t + y₀, y₁) of the narrowed join. -/
theorem rows_read (c : Dev nD) (t : Fin cfg0.N) (y : S768x2048.Idx) (i : S26112x2048.Idx)
    (h0 : (i 0).val = win0_0.index t (0 : Fin 2) * 768 + (y 0).val) (h1 : (i 1).val = win0_0.index t (1 : Fin 2) * 2048 + (y 1).val) :
    ((iblk m c 0 t : Vec Ideal S768x2048 .bf16) y : EReal) = (V m c main_v1 : S26112x2048.Idx → EReal) i := by
  unfold iblk
  rw [View.read_apply]
  show (V m c main_v1 : S26112x2048.Idx → EReal) _ = (V m c main_v1 : S26112x2048.Idx → EReal) _
  congr 1
  funext a
  apply Fin.ext
  match a with
  | ⟨0, _⟩ => show win0_0.index t (0 : Fin 2) * 768 + 1 * (y 0).val = (i 0).val; omega
  | ⟨1, _⟩ => show win0_0.index t (1 : Fin 2) * 2048 + 1 * (y 1).val = (i 1).val; omega

/-- Entry `y` of the factor staged at grid point `t` is the same entry of the narrowed factor. -/
theorem factor_read (c : Dev nD) (t : Fin cfg0.N) (y : S2048x2048.Idx) (i : S2048x2048.Idx)
    (h0 : (i 0).val = win0_1.index t (0 : Fin 2) * 2048 + (y 0).val) (h1 : (i 1).val = win0_1.index t (1 : Fin 2) * 2048 + (y 1).val) :
    ((iblk m c 1 t : Vec Ideal S2048x2048 .bf16) y : EReal) = (V m c main_v2 : S2048x2048.Idx → EReal) i := by
  unfold iblk
  rw [View.read_apply]
  show (V m c main_v2 : S2048x2048.Idx → EReal) _ = (V m c main_v2 : S2048x2048.Idx → EReal) _
  congr 1
  funext a
  apply Fin.ext
  match a with
  | ⟨0, _⟩ => show win0_1.index t (0 : Fin 2) * 2048 + 1 * (y 0).val = (i 0).val; omega
  | ⟨1, _⟩ => show win0_1.index t (1 : Fin 2) * 2048 + 1 * (y 1).val = (i 1).val; omega

/-- What grid point `t` writes back is block `t` of the product of the two staged arrays. -/
theorem flushed_eq (c : Dev nD) (t : Fin cfg0.N) :
    (dats m 0 c).flushed 2 t = ((cfg0.win 2).blk t).view.read (Elt Ideal) (product (V m c main_v1) (V m c main_v2)) := by
  show (cfg0.win 2).cut (grid0.coords t) ((dats m 0 c).after 2 t) = _
  rw [after_product]
  unfold productBlock
  rw [View.canon_unit_zero hz]
  simp only [View.ld_unit_zero (S := S768x2048) hz, View.ld_unit_zero (S := S2048x2048) hz]
  obtain ⟨e0, e1, e2, e3, e4, e5⟩ := idx_facts t
  funext j
  show k0_pay1 (F := Ideal) (iblk m c 0 t) (iblk m c 1 t) j = product (V m c main_v1) (V m c main_v2) (((cfg0.win 2).blk t).view.emb j)
  refine (payload_apply (iblk m c 0 t) (iblk m c 1 t) j).trans ?_
  rw [product_apply]
  refine Finset.sum_congr rfl fun k _ => ?_
  have r0 : ((((cfg0.win 2).blk t).view.emb j : S26112x2048.Idx) 0).val = win0_2.index t (0 : Fin 2) * 768 + 1 * (j 0).val := rfl
  have r1 : ((((cfg0.win 2).blk t).view.emb j : S26112x2048.Idx) 1).val = win0_2.index t (1 : Fin 2) * 2048 + 1 * (j 1).val := rfl
  congr 1
  · refine rows_read m c t (blockRow j k) (inRow (((cfg0.win 2).blk t).view.emb j) k) ?_ ?_
    · show ((((cfg0.win 2).blk t).view.emb j : S26112x2048.Idx) 0).val = win0_0.index t (0 : Fin 2) * 768 + (j 0).val
      rw [r0]; omega
    · show k.val = win0_0.index t (1 : Fin 2) * 2048 + k.val
      omega
  · refine factor_read m c t (blockColumn j k) (inColumn (((cfg0.win 2).blk t).view.emb j) k) ?_ ?_
    · show k.val = win0_1.index t (0 : Fin 2) * 2048 + k.val
      omega
    · show ((((cfg0.win 2).blk t).view.emb j : S26112x2048.Idx) 1).val = win0_1.index t (1 : Fin 2) * 2048 + (j 1).val
      rw [r1]; omega

/-- Row `i₀` lies in the block of grid point `t` exactly when 768·t ≤ i₀ < 768·t + 768 (the block spans all columns). -/
theorem mem_block (t : Fin cfg0.N) (i : S26112x2048.Idx) :
    i ∈ ((cfg0.win 2).blk t).view.set ↔ ∀ a : Fin 2, win0_2.index t a * S768x2048.size a ≤ (i a).val ∧ (i a).val < win0_2.index t a * S768x2048.size a + S768x2048.size a := by
  show i ∈ ((View.whole main_v3).slice (win0_2.rect t)).set ↔ _
  rw [View.set_slice_whole, Rect.mem_set_unit]
  exact Iff.rfl

/-- Every entry of the result lies in some written block: row `i₀` in the block of grid point `i₀ / 768`. -/
theorem covered (i : S26112x2048.Idx) :
    ∃ t : Fin cfg0.N, (cfg0.win 2).flush t = true ∧ i ∈ ((cfg0.win 2).blk t).view.set := by
  have hi0 : (i 0).val < 26112 := (i 0).isLt
  have hi1 : (i 1).val < 2048 := (i 1).isLt
  have hN : cfg0.N = 34 := N_0
  have ht : (i 0).val / 768 < cfg0.N := by rw [hN]; omega
  refine ⟨⟨(i 0).val / 768, ht⟩, flush0_2 _, ?_⟩
  rw [mem_block]
  obtain ⟨e0, e1, e2, e3, e4, e5⟩ := idx_facts ⟨(i 0).val / 768, ht⟩
  intro a
  match a with
  | ⟨0, _⟩ =>
    show win0_2.index ⟨(i 0).val / 768, ht⟩ (0 : Fin 2) * 768 ≤ (i 0).val ∧ (i 0).val < win0_2.index ⟨(i 0).val / 768, ht⟩ (0 : Fin 2) * 768 + 768
    rw [e5]
    show (i 0).val / 768 * 768 ≤ (i 0).val ∧ (i 0).val < (i 0).val / 768 * 768 + 768
    omega
  | ⟨1, _⟩ =>
    show win0_2.index ⟨(i 0).val / 768, ht⟩ (1 : Fin 2) * 2048 ≤ (i 1).val ∧ (i 1).val < win0_2.index ⟨(i 0).val / 768, ht⟩ (1 : Fin 2) * 2048 + 2048
    omega

/-- The result array after the run: the product of the joined groups with the shared factor. -/
theorem final (c : Dev nD) :
    (dats m 0 c).arrAt 2 cfg0.N = product (joined m c) (m ((c : Thread nD τ).loc main_arg8)) := by
  rw [(dats m 0 c).arrAt_eq_of_cover 2 (product (V m c main_v1) (V m c main_v2)) (fun t _ => flushed_eq m c t) covered,
    narrowedJoin_eq, narrowedFactor_eq]

/-! ## The run, read -/

/-- Every weakly fair execution terminates with the result array at the product and the arguments unchanged. -/
theorem run : θ_run defs (onTc (τ := τ) (main (F := Ideal))) ⟨m, fun _ => 0, ρ⟩ fun r => ∀ c : Dev nD,
      r.2.mem ((c.tc : Thread nD τ).loc main_v3) = product (joined m c) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 2).trans (final m c), kept m (dats m) r h c⟩) (run_main m ρ)

end Cert.KernelIdeal.Product

end
-- ==== Proof.ReferenceProduct.lean ====
/-
  The reference computes the same product.

  Its one matrix product contracts the columns of the joined row groups against the rows of the shared factor; read at
  an entry (r, j) on the extended reals this is the sum over k of join[r, k] · factor[k, j] — the row-by-column
  product, with nothing to rearrange.
-/
import proofs.«159174_j91036126806575_2_alg».proof.Proof.Gen.ReferenceIdeal.Read
import proofs.«159174_j91036126806575_2_alg».proof.Proof.RowByColumn

noncomputable section

namespace Cert.ReferenceIdeal.Product

open Cert.ReferenceIdeal Cert.ReferenceIdeal.Gen Cert.RowByColumn
open Idealize.ShloMosaic Idealize.ShloMosaic.TcCoe Idealize.SL.Sem

/-- The reference's result, as a function of its nine arguments, is the product of the join of the first eight with
    the ninth. -/
theorem result_eq (x0 : (⟨S4096x2048, .f32⟩ : BufTy).Contents (Elt Ideal)) (x1 : (⟨S2048x2048, .f32⟩ : BufTy).Contents (Elt Ideal)) (x2 : (⟨S1024x2048, .f32⟩ : BufTy).Contents (Elt Ideal)) (x3 : (⟨S8192x2048, .f32⟩ : BufTy).Contents (Elt Ideal)) (x4 : (⟨S512x2048, .f32⟩ : BufTy).Contents (Elt Ideal)) (x5 : (⟨S3072x2048, .f32⟩ : BufTy).Contents (Elt Ideal)) (x6 : (⟨S6144x2048, .f32⟩ : BufTy).Contents (Elt Ideal)) (x7 : (⟨S1024x2048, .f32⟩ : BufTy).Contents (Elt Ideal)) (x8 : (⟨S2048x2048, .f32⟩ : BufTy).Contents (Elt Ideal)) :
    Read.val_main_v1 (F := Ideal) x0 x1 x2 x3 x4 x5 x6 x7 x8
      = product (Read.val_main_v0 (F := Ideal) x0 x1 x2 x3 x4 x5 x6 x7) x8 := by
  funext i
  rw [Read.val_main_v1_apply]
  rfl

end Cert.ReferenceIdeal.Product

end
-- ==== Proof.lean ====
/-
  The concatenated grouped product against its one-product reference, on the extended reals.

  The kernel joins eight row groups into one 26112 × 2048 array, narrows it and the shared 2048 × 2048 factor to
  bf16, and multiplies 768 rows at a time over 34 grid points, accumulating each block's product from zero. The
  reference joins the same groups and multiplies once. On the extended reals a change of float format is the identity,
  so both compute, at entry (r, j), the sum over k of join[r, k] · factor[k, j]: the same products summed over the same
  index set. The 34 row blocks tile the 26112 rows, so the kernel's result array is the whole product; the reference's
  contraction read at an entry is that sum directly. Nothing depends on the inputs being finite.

  Each program writes only buffers of its own (the join, the narrowed copies, the result), so each terminates without a
  fault and leaves its nine arguments as they were. The idealization rewrote no operation, so there is nothing to
  preserve beyond the program text itself.
-/
import proofs.«159174_j91036126806575_2_alg».proof.Defs
import proofs.«159174_j91036126806575_2_alg».proof.Proof.Gen.Kernel
import proofs.«159174_j91036126806575_2_alg».proof.Proof.Gen.KernelIdeal
import proofs.«159174_j91036126806575_2_alg».proof.Proof.Gen.ReferenceIdeal
import proofs.«159174_j91036126806575_2_alg».proof.Proof.Gen.ReferenceIdeal.Run
import proofs.«159174_j91036126806575_2_alg».proof.Proof.Gen.ReferenceIdeal.Read
import proofs.«159174_j91036126806575_2_alg».proof.Proof.Gen.Pre_finite_inputs
import proofs.«159174_j91036126806575_2_alg».proof.Proof.BitsRowBlocks
import proofs.«159174_j91036126806575_2_alg».proof.Proof.IdealRowBlocks
import proofs.«159174_j91036126806575_2_alg».proof.Proof.IdealProduct
import proofs.«159174_j91036126806575_2_alg».proof.Proof.ReferenceProduct
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_kernel : Cert.frame_Kernel := fun m ρ _ => Cert.Kernel.RowBlocks.frame m ρ

/-- So does the idealized kernel. -/
theorem frame_ideal : Cert.frame_KernelIdeal := fun m ρ _ => Cert.KernelIdeal.RowBlocks.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the nine arguments, the idealized kernel's result array and the reference's both end
    at the row-by-column product of the joined groups with the shared factor. -/
theorem algebraic : Cert.algebraic_KernelIdeal_ReferenceIdeal := by
  intro m ρ m' ρ' _ hagree
  refine ⟨fun c => Cert.RowByColumn.product (Cert.KernelIdeal.Product.joined m c)
      (m ((c : Thread Cert.KernelIdeal.nD Cert.KernelIdeal.τ).loc Cert.KernelIdeal.main_arg8)),
    Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v1_eq, Cert.ReferenceIdeal.Product.result_eq, a0, a1, a2, a3, a4, a5, a6, a7, a8]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
